-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : FVec F S800000 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 59
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128, .f32⟩
  | .hbm, ⟨58, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_7 : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S50000x1.size a
  hwx0_3 : ∀ i : grid0.Coords, EltTy.bits .f32 = 32 ∨ (Rect.block (s := S50000x1) S10000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S50000x128.size a
  hwx0_4 : ∀ i : grid0.Coords, EltTy.bits .f32 = 32 ∨ (Rect.block (s := S50000x128) S10000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v34) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x1, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.GraphLayer.lean ====
/-
  The output of one graph-convolution layer as a function of whole arrays over the extended reals.

  With a the N × K matrix of aggregated messages, w the K × M weights, t a factor per node (the destination-side
  degree normaliser) and b a bias per output feature, the layer's entry (p, q) is

      (∑ₖ a (p, k) · w (k, q)) · t p + b q.

  A tiled computation meets the factor as an N × 1 column and the bias as a 1 × M row; when these are the vectors
  recast, the two readings are one function.
-/
import Idealize.ShloMosaic.Lib.Pipeline.Value
import Idealize.ShloMosaic.Lib.ValueIdx
import Idealize.ShloMosaic.Lib.ValueLayout
import proofs.«174362_j16612933501110_2_alg».proof.Proof.LibColumns

noncomputable section

open scoped BigOperators

namespace Cert.GraphLayer

open Idealize.ShloMosaic Idealize.ShloMosaic.ValueIdx

/-- An a × b matrix of extended reals, and a vector of a of them. -/
abbrev Mat (a b : ℕ) : Type := (⟨2, ![a, b]⟩ : Shape).Idx → EReal
abbrev Vect (a : ℕ) : Type := (⟨1, ![a]⟩ : Shape).Idx → EReal

variable {N K M : ℕ}

/-- The layer: entry (p, q) is (∑ₖ a (p,k) · w (k,q)) · t p + b q. -/
def layer (a : Mat N K) (w : Mat K M) (b : Vect M) (t : Vect N) : Mat N M :=
  fun j => (∑ k : Fin K, a (ix2 (n0 := N) (j 0) k) * w (ix2 (n1 := M) k (j 1))) * t (ix1 (n := N) (j 0))
    + b (ix1 (n := M) (j 1))

/-- The same with the factor an N × 1 column and the bias a 1 × M row. -/
def layerCols (a : Mat N K) (w : Mat K M) (b : Mat 1 M) (t : Mat N 1) : Mat N M :=
  fun j => (∑ k : Fin K, a (ix2 (n0 := N) (j 0) k) * w (ix2 (n1 := M) k (j 1))) * t (ix2 (n0 := N) (j 0) (0 : Fin 1))
    + b (ix2 (0 : Fin 1) (n1 := M) (j 1))

theorem layer_apply (a : Mat N K) (w : Mat K M) (b : Vect M) (t : Vect N) (p : Fin N) (q : Fin M) :
    layer a w b t (ix2 p q) = (∑ k : Fin K, a (ix2 p k) * w (ix2 k q)) * t (ix1 p) + b (ix1 q) := rfl

theorem layerCols_apply (a : Mat N K) (w : Mat K M) (b : Mat 1 M) (t : Mat N 1) (p : Fin N) (q : Fin M) :
    layerCols a w b t (ix2 p q)
      = (∑ k : Fin K, a (ix2 p k) * w (ix2 k q)) * t (ix2 p (0 : Fin 1)) + b (ix2 (0 : Fin 1) q) := rfl

/-- With the column the factor vector recast and the row the bias vector recast, the two are one function. -/
theorem layerCols_recast (hb : (⟨1, ![M]⟩ : Shape).ShapeCasts ⟨2, ![1, M]⟩)
    (ht : (⟨1, ![N]⟩ : Shape).ShapeCasts ⟨2, ![N, 1]⟩)
    (a : Mat N K) (w : Mat K M) (b : Vect M) (t : Vect N) :
    layerCols a w (shapeCast ⟨2, ![1, M]⟩ b hb) (shapeCast ⟨2, ![N, 1]⟩ t ht) = layer a w b t := by
  funext j
  obtain ⟨p, q, rfl⟩ : ∃ (p : Fin N) (q : Fin M), j = ix2 p q := ⟨j 0, j 1, eq_ix2 j⟩
  rw [layerCols_apply, layer_apply, Cert.LibColumns.shapeCast_a_a1_apply t ht p (0 : Fin 1),
    shapeCast_a_1a_apply b hb (0 : Fin 1) q]

end Cert.GraphLayer

end
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.HostStages.lean ====
/-
  What the grid finds in the arrays it reads: the host operations before the tiled product, as functions of the arguments.

  * The node factor of an index list: count, for every node, the list's entries equal to it (a scatter of ones into
    zeros), raise the count to at least 1, and take the power −1/2.
  * The source index column: a negative index is first moved up by 50000 (indexing from the end), then the list is
    spread as a column.
  * The aggregated messages: row e of the feature table gathered at the source index, times the edge weight scaled by
    the source-side factor gathered at the same index, scattered with addition into zeros at the destination index.
  * The destination-side factor recast as a 50000 × 1 column, and the bias recast as a 1 × 128 row.
-/
import proofs.«174362_j16612933501110_2_alg».proof.Proof.Gen.KernelIdeal.Frame
import Idealize.ShloMosaic.Lib.StableHlo.Run
import Idealize.ShloMosaic.PureOps.Ideal
import proofs.«174362_j16612933501110_2_alg».proof.Proof.LibHostLine

noncomputable section

namespace Cert.KernelIdeal.Stages

open Cert.KernelIdeal Cert.KernelIdeal.Gen Idealize.ShloMosaic Idealize.ShloMosaic.TcCoe Idealize.SL.Sem
open Idealize.ShloMosaic.StableHlo

/-- The node factor of an index list: (max(1, number of entries equal to the node))^(−1/2). -/
def degFactor (xi : IVec S800000 32) : FVec Ideal S50000 .f32 :=
  Host.powf (F := Ideal)
    (maximumf (F := Ideal) (broadcastInDim S50000 ![] bcast_S_S50000 (constant (F := Ideal) S_ .f32 0x3F800000#32))
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 xi)
        (broadcastInDim S800000 ![] bcast_S_S800000 (constant (F := Ideal) S_ .f32 0x3F800000#32))))
    (broadcastInDim S50000 ![] bcast_S_S50000 (constant (F := Ideal) S_ .f32 0xBF000000#32))

/-- The source index column: negative entries moved up by 50000, the list spread as a column. -/
def srcColumn (x4 : IVec S800000 32) : IVec S800000x1 32 :=
  broadcastInDim S800000x1 ![0] bcast_S800000_S800000x1_0
    (select (cmpi .slt x4 (broadcastInDim S800000 ![] bcast_S_S800000 (constantI S_ 32 0#32)))
      (addi x4 (broadcastInDim S800000 ![] bcast_S_S800000 (constantI S_ 32 50000#32))) x4)

/-- The messages before aggregation: the gathered source rows, row e times (edge weight e · gathered source factor). -/
def edgeRows (x0 : FVec Ideal S50000x128 .f32) (x3 : FVec Ideal S800000 .f32) (x4 : IVec S800000 32) :
    FVec Ideal S800000x128 .f32 :=
  mulf (F := Ideal) (Host.gather gather_S50000x128_S800000x1_S800000x128_1_0_n_n_0_1_1128 x0 (srcColumn x4))
    (broadcastInDim S800000x128 ![0, 1] bcast_S800000x1_S800000x128_0_1
      (broadcastInDim S800000x1 ![0] bcast_S800000_S800000x1_0
        (mulf (F := Ideal) x3 (Host.gather gather_S50000_S800000x1_S800000_n_0_n_n_0_1_1 (degFactor x4) (srcColumn x4)))))

/-- The aggregated messages: the messages added into zeros at their destination index. -/
def aggregated (x0 : FVec Ideal S50000x128 .f32) (x3 : FVec Ideal S800000 .f32) (x4 x5 : IVec S800000 32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 x5)
    (edgeRows x0 x3 x4)

/-! A called function writes each result through a reference typed by the value and reads each operand back through
    one; for a reference whose buffer has the value's own type, writing and reading back change nothing. -/
theorem read_cst_1 (v : (⟨S_, .f32⟩ : BufTy).Contents (Elt Ideal)) :
    (TRef.of (T := ⟨S_, .f32⟩) main_cst_1).ofBuf v = v := rfl
theorem read_v3 (v : (⟨S50000, .f32⟩ : BufTy).Contents (Elt Ideal)) :
    (TRef.of (T := ⟨S50000, .f32⟩) main_v3).ofBuf v = v := rfl
theorem write_v4 (v : (⟨S50000, .f32⟩ : BufTy).Contents (Elt Ideal)) :
    (TRef.of (T := ⟨S50000, .f32⟩) main_v4).toBuf v = v := rfl
theorem read_cst_3 (v : (⟨S_, .f32⟩ : BufTy).Contents (Elt Ideal)) :
    (TRef.of (T := ⟨S_, .f32⟩) main_cst_3).ofBuf v = v := rfl
theorem read_v7 (v : (⟨S50000, .f32⟩ : BufTy).Contents (Elt Ideal)) :
    (TRef.of (T := ⟨S50000, .f32⟩) main_v7).ofBuf v = v := rfl
theorem write_v8 (v : (⟨S50000, .f32⟩ : BufTy).Contents (Elt Ideal)) :
    (TRef.of (T := ⟨S50000, .f32⟩) main_v8).toBuf v = v := rfl

variable (m : (ℓ : Loc nD τ sig) → Buf (Elt Ideal) ℓ)

/-- The first window's array: the aggregated messages of the arguments. -/
theorem found_messages (c : Dev nD) :
    (V m c main_v34 : S50000x128.Idx → EReal)
      = aggregated (m ((c : Thread nD τ).loc main_arg0)) (m ((c : Thread nD τ).loc main_arg3))
          (m ((c : Thread nD τ).loc main_arg4)) (m ((c : Thread nD τ).loc main_arg5)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  simp only [Cert.LibHostLine.ofBuf_toBuf, read_cst_1, read_v3, write_v4, read_cst_3, read_v7, write_v8]
  unfold aggregated edgeRows srcColumn degFactor
  rfl

/-- The fourth window's array: the destination-side factor as a column. -/
theorem found_factor (c : Dev nD) :
    (V m c main_v13 : S50000x1.Idx → EReal)
      = shapeCast S50000x1 (degFactor (m ((c : Thread nD τ).loc main_arg5))) shapeCasts_S50000_S50000x1 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  simp only [Cert.LibHostLine.ofBuf_toBuf, read_cst_1, read_v3, write_v4, read_cst_3, read_v7, write_v8]
  unfold degFactor
  rfl

/-- The third window's array: the bias as a row. -/
theorem found_bias (c : Dev nD) :
    (V m c main_v35 : S1x128.Idx → EReal)
      = shapeCast S1x128 (m ((c : Thread nD τ).loc main_arg2)) shapeCasts_S128_S1x128 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  rfl

end Cert.KernelIdeal.Stages

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.BlockLayer.lean ====
/-
  One grid point's arithmetic, read at an entry.

  At a grid point the body holds a block of 10000 rows of the aggregated messages (10000 × 128), the whole weight
  matrix (128 × 128), the bias as a 1 × 128 row and the same 10000 rows of the node factor as a 10000 × 1 column.
  It rounds the two matrices to a narrower float format — the identity on the extended reals —, multiplies them into
  a zero accumulator, multiplies row p of the product by the column's entry p and adds the bias row. So entry (p, q)
  of what it stores is

      (∑ₖ x (p, k) · w (k, q)) · t (p, 0) + b (0, q).

  When the block's rows are rows r·10000 + p of a 50000-row array, this is the layer's entry (r·10000 + p, q).
-/
import proofs.«174362_j16612933501110_2_alg».proof.Proof.Gen.KernelIdeal.Skeleton
import proofs.«174362_j16612933501110_2_alg».proof.Proof.LibColumns
import proofs.«174362_j16612933501110_2_alg».proof.Proof.LibPlainDot
import proofs.«174362_j16612933501110_2_alg».proof.Proof.GraphLayer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockLayer

open Cert.KernelIdeal Cert.KernelIdeal.Gen Idealize.ShloMosaic Idealize.ShloMosaic.ValueIdx Cert.GraphLayer

/-! ## The product's dimension numbers: which entries of the operands meet at an output entry -/

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-! ## What the body stores, at an entry -/

/-- Entry (p, q) of the stored value: the product's entry, times the column's entry p, plus the row's entry q. -/
theorem stored_apply (x : Vec Ideal S10000x128 .f32) (w : Vec Ideal S128x128 .f32) (t : Vec Ideal S10000x1 .f32)
    (b : Vec Ideal S1x128 .f32) (p : Fin 10000) (q : Fin 128) :
    k0_pay1 (F := Ideal) x w t b (ix2 p q)
      = (∑ k : Fin 128, x (ix2 p k) * w (ix2 k q)) * t (ix2 p (0 : Fin 1)) + b (ix2 (0 : Fin 1) q) := by
  unfold k0_pay1
  rw [shapeCast_self, shapeCast_self, shapeCast_self, addf_apply, mulf_apply,
    Cert.LibColumns.broadcastTo_a1_ab_apply, broadcastTo_1b_ab_apply]
  refine congrArg (fun s : EReal => s * t (ix2 p (0 : Fin 1)) + b (ix2 (0 : Fin 1) q)) ?_
  exact Cert.PlainDot.matmul_zero_apply dot_S10000x128_S128x128_S10000x128_1_0_0_1_n_n rfl rfl lhs0 lhs1 rhs0 rhs1 none
    (truncf .bf16 x bitsLt_bf16_f32) (truncf .bf16 w bitsLt_bf16_f32) p q

/-- Row p of block r of a 50000-row array. -/
def rowIn (r : ℕ) (hr : r < 5) (p : Fin 10000) : Fin 50000 := ⟨r * 10000 + p.val, by have := p.isLt; omega⟩

/-- A BLOCK OF THE LAYER: when the message block and the factor block are rows r·10000 + p of the whole arrays, the
    stored value at j is the layer's entry at row r·10000 + j₀, column j₁. -/
theorem stored_block (A : Mat 50000 128) (W : Mat 128 128) (B : Mat 1 128) (T : Mat 50000 1) (r : ℕ) (hr : r < 5)
    (j : S10000x128.Idx) :
    k0_pay1 (F := Ideal) (fun y : S10000x128.Idx => A (ix2 (rowIn r hr (y 0)) (y 1))) W
        (fun y : S10000x1.Idx => T (ix2 (rowIn r hr (y 0)) (y 1))) B j
      = layerCols A W B T (ix2 (rowIn r hr (j 0)) (j 1)) := by
  obtain ⟨p, q, rfl⟩ : ∃ (p : Fin 10000) (q : Fin 128), j = ix2 p q := ⟨j 0, j 1, eq_ix2 j⟩
  rw [stored_apply, layerCols_apply]

end Cert.KernelIdeal.BlockLayer

end
-- ==== Proof.KernelArray.lean ====
/-
  From what each grid point writes to the whole result array.

  The grid has five points; point t reads rows t·10000 … t·10000 + 9999 of the aggregated messages and of the factor
  column, the whole weight matrix and the whole bias row, and writes the same rows of the result. What it writes is
  (one grid point's arithmetic, read at an entry) that block of rows of the layer of the four arrays the grid finds.
  The five blocks of rows tile the 50000 rows, so after the run the result array is the layer.
-/
import proofs.«174362_j16612933501110_2_alg».proof.Proof.Gen.KernelIdeal.Value
import proofs.«174362_j16612933501110_2_alg».proof.Proof.BlockLayer
import proofs.«174362_j16612933501110_2_alg».proof.Proof.GraphLayer
import Idealize.ShloMosaic.Lib.Pipeline.Value
import Idealize.ShloMosaic.Lib.ValueIdx

noncomputable section

namespace Cert.KernelIdeal.KernelArray

open Cert.KernelIdeal Cert.KernelIdeal.Gen Idealize.ShloMosaic Idealize.ShloMosaic.TcCoe Idealize.SL.Sem
open Idealize.ShloMosaic.Pipeline (Dat)
open Idealize.ShloMosaic.ValueIdx Cert.GraphLayer Cert.KernelIdeal.BlockLayer

variable (m : (ℓ : Loc nD τ sig) → Buf (Elt Ideal) ℓ) (ρ : Dev nD → PrngReg)

theorem origin : (![0, 0] : Fin 2 → Nat) = fun _ => 0 := funext fun a => by fin_cases a <;> rfl

/-- The layer of the four arrays as the grid finds them (window w's array, w = 0 … 3: the aggregated messages, the
    weights, the bias row, the factor column). -/
def found (c : Dev nD) : S50000x128.Idx → EReal :=
  layerCols (V m c (Pipeline.arrRef spec0 0)) (V m c (Pipeline.arrRef spec0 1)) (V m c (Pipeline.arrRef spec0 2))
    (V m c (Pipeline.arrRef spec0 3))

/-- The printed index maps, decided over the five points: the message block, the factor block and the result block
    move together down the rows, the weights and the bias stay, and there are five row blocks. -/
theorem block_indices : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) < 5 :=
  (by decide +kernel : ∀ t : Fin grid0.N, _)

/-- Every row block is some point's. -/
theorem block_onto : ∀ q0 : Fin 5, ∃ t : Fin cfg0.N, win0_4.index t = ![q0.val, 0] :=
  (by decide +kernel : ∀ q0 : Fin 5, ∃ t : Fin grid0.N, win0_4.index t = ![q0.val, 0])

/-- ONE POINT, FOR ANY FOUR ARRAYS: the body's stored value of the four windows' blocks at point t, read through the
    result's window, is block t of the layer of the arrays. A block's entry y sits in its array at block index × block
    extent + y on each axis; the message, factor and result blocks share their row index, and the others are whole. -/
theorem point_block (A : S50000x128.Idx → EReal) (W : S128x128.Idx → EReal) (B : S1x128.Idx → EReal)
    (T : S50000x1.Idx → EReal) (t : Fin cfg0.N) :
    (cfg0.win 4).cut (grid0.coords t)
        (k0_pay1 (F := Ideal) (((cfg0.win 0).blk t).view.read (Elt Ideal) A)
          (((cfg0.win 1).blk t).view.read (Elt Ideal) W) (((cfg0.win 3).blk t).view.read (Elt Ideal) T)
          (((cfg0.win 2).blk t).view.read (Elt Ideal) B))
      = ((cfg0.win 4).blk t).view.read (Elt Ideal) (layerCols A W B T) := by
  obtain ⟨e00, e01, e10, e11, e20, e21, e30, e31, e41, e40⟩ := block_indices t
  have hmsg : (((cfg0.win 0).blk t).view.read (Elt Ideal) A : S10000x128.Idx → EReal)
      = fun y => A (ix2 (rowIn (win0_4.index t (0 : Fin 2)) e40 (y 0)) (y 1)) := by
    funext y
    show A (((cfg0.win 0).blk t).view.emb y) = _
    refine congrArg A (funext fun a => Fin.ext ?_)
    match a with
    | ⟨0, _⟩ =>
      show win0_0.index t (0 : Fin 2) * 10000 + 1 * (y 0).val = win0_4.index t (0 : Fin 2) * 10000 + (y 0).val
      omega
    | ⟨1, _⟩ =>
      show win0_0.index t (1 : Fin 2) * 128 + 1 * (y 1).val = (y 1).val
      omega
  have hwts : (((cfg0.win 1).blk t).view.read (Elt Ideal) W : S128x128.Idx → EReal) = W := by
    funext y
    show W (((cfg0.win 1).blk t).view.emb y) = _
    refine congrArg W (funext fun a => Fin.ext ?_)
    match a with
    | ⟨0, _⟩ =>
      show win0_1.index t (0 : Fin 2) * 128 + 1 * (y 0).val = (y 0).val
      omega
    | ⟨1, _⟩ =>
      show win0_1.index t (1 : Fin 2) * 128 + 1 * (y 1).val = (y 1).val
      omega
  have hbias : (((cfg0.win 2).blk t).view.read (Elt Ideal) B : S1x128.Idx → EReal) = B := by
    funext y
    show B (((cfg0.win 2).blk t).view.emb y) = _
    refine congrArg B (funext fun a => Fin.ext ?_)
    match a with
    | ⟨0, _⟩ =>
      show win0_2.index t (0 : Fin 2) * 1 + 1 * (y 0).val = (y 0).val
      omega
    | ⟨1, _⟩ =>
      show win0_2.index t (1 : Fin 2) * 128 + 1 * (y 1).val = (y 1).val
      omega
  have hfac : (((cfg0.win 3).blk t).view.read (Elt Ideal) T : S10000x1.Idx → EReal)
      = fun y => T (ix2 (rowIn (win0_4.index t (0 : Fin 2)) e40 (y 0)) (y 1)) := by
    funext y
    show T (((cfg0.win 3).blk t).view.emb y) = _
    refine congrArg T (funext fun a => Fin.ext ?_)
    match a with
    | ⟨0, _⟩ =>
      show win0_3.index t (0 : Fin 2) * 10000 + 1 * (y 0).val = win0_4.index t (0 : Fin 2) * 10000 + (y 0).val
      omega
    | ⟨1, _⟩ =>
      show win0_3.index t (1 : Fin 2) * 1 + 1 * (y 1).val = (y 1).val
      omega
  rw [hmsg, hwts, hbias, hfac]
  funext j
  have hout : ((cfg0.win 4).blk t).view.emb j = ix2 (rowIn (win0_4.index t (0 : Fin 2)) e40 (j 0)) (j 1) := by
    funext a
    apply Fin.ext
    match a with
    | ⟨0, _⟩ =>
      show win0_4.index t (0 : Fin 2) * 10000 + 1 * (j 0).val = win0_4.index t (0 : Fin 2) * 10000 + (j 0).val
      omega
    | ⟨1, _⟩ =>
      show win0_4.index t (1 : Fin 2) * 128 + 1 * (j 1).val = (j 1).val
      omega
  show k0_pay1 (F := Ideal) _ W _ B j = layerCols A W B T (((cfg0.win 4).blk t).view.emb j)
  rw [hout]
  exact stored_block A W B T (win0_4.index t (0 : Fin 2)) e40 j

/-- WHAT POINT t WRITES BACK is block t of the layer of the arrays the grid finds. -/
theorem flushed_eq (c : Dev nD) (t : Fin cfg0.N) :
    (dats m 0 c).flushed 4 t = ((cfg0.win 4).blk t).view.read (Elt Ideal) (found m c) := by
  rw [Value.flushed4]
  unfold out0_4
  rw [View.canon_unit_zero origin]
  simp only [View.ld_unit_zero (S := S10000x128) origin, View.ld_unit_zero (S := S128x128) origin,
    View.ld_unit_zero (S := S10000x1) origin, View.ld_unit_zero (S := S1x128) origin]
  exact point_block (V m c (Pipeline.arrRef spec0 0)) (V m c (Pipeline.arrRef spec0 1))
    (V m c (Pipeline.arrRef spec0 2)) (V m c (Pipeline.arrRef spec0 3)) t

/-- An index of the result is in point t's block iff each coordinate is in the block's range on its axis. -/
theorem mem_block (t : Fin cfg0.N) (i : S50000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v36).slice (win0_4.rect t)).set ↔ _
  rw [View.set_slice_whole, Rect.mem_set_unit]
  exact Iff.rfl

/-- Every index of the result is in some point's block: row i₀ is in block i₀ / 10000. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := block_onto ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 10000 ≤ (i 0).val ∧ (i 0).val < win0_4.index t (0 : Fin 2) * 10000 + 10000
    omega
  | ⟨1, _⟩ =>
    show win0_4.index t (1 : Fin 2) * 128 ≤ (i 1).val ∧ (i 1).val < win0_4.index t (1 : Fin 2) * 128 + 128
    omega

/-- THE RESULT ARRAY after the run is the layer of the arrays the grid finds. -/
theorem final (c : Dev nD) : (dats m 0 c).arrAt 4 cfg0.N = found m c :=
  (dats m 0 c).arrAt_eq_of_cover 4 (found m c) (fun t _ => flushed_eq m c t) covered

end Cert.KernelIdeal.KernelArray

end
-- ==== Proof.RefLayer.lean ====
/-
  The reference's result is the layer.

  Its last four operations multiply the matrix product of the aggregated messages with the weights by the
  destination-side factor — a vector of one factor per node, spread as a column over the 128 output features — and add
  the bias, a vector spread as a row over the 50000 nodes. Entry (p, q) is therefore
  (∑ₖ agg (p, k) · w (k, q)) · t p + b q: the layer of the aggregated messages and the factor the reference computed.
-/
import proofs.«174362_j16612933501110_2_alg».proof.Proof.Gen.ReferenceIdeal.Read
import proofs.«174362_j16612933501110_2_alg».proof.Proof.GraphLayer
import Idealize.ShloMosaic.Lib.ValueIdx
import Idealize.ShloMosaic.PureOps.Ideal.Laws

noncomputable section

open scoped BigOperators

namespace Cert.ReferenceIdeal.RefLayer

open Cert.ReferenceIdeal Cert.ReferenceIdeal.Read Idealize.ShloMosaic Idealize.ShloMosaic.ValueIdx Cert.GraphLayer

/-- The reference's result, as a function of its arguments, is the layer of its aggregated messages (its scatter),
    the weights, the bias and its destination-side factor. -/
theorem result_is_layer (x0 : (⟨S50000x128, .f32⟩ : BufTy).Contents (Elt Ideal))
    (x1 : (⟨S128x128, .f32⟩ : BufTy).Contents (Elt Ideal)) (x2 : (⟨S128, .f32⟩ : BufTy).Contents (Elt Ideal))
    (x3 : (⟨S800000, .f32⟩ : BufTy).Contents (Elt Ideal)) (x4 x5 : (⟨S800000, .i32⟩ : BufTy).Contents (Elt Ideal)) :
    val_main_v35 (F := Ideal) x0 x1 x2 x3 x4 x5
      = layer (val_main_v22 (F := Ideal) x0 x3 x4 x5) x1 x2 (val_main_v29 (F := Ideal) x5) := by
  funext j
  obtain ⟨p, q, rfl⟩ : ∃ (p : Fin 50000) (q : Fin 128), j = ix2 p q := ⟨j 0, j 1, eq_ix2 j⟩
  have el : ∀ k : Fin 128, lidx_main_v23 (ix2 p q) k = ix2 p k := fun k => funext fun a => Fin.ext (by
    match a with
    | ⟨0, _⟩ => rfl
    | ⟨1, _⟩ => rfl)
  have er : ∀ k : Fin 128, ridx_main_v23 (ix2 p q) k = ix2 k q := fun k => funext fun a => Fin.ext (by
    match a with
    | ⟨0, _⟩ => rfl
    | ⟨1, _⟩ => rfl)
  have et : idx_main_v30 (idx_main_v31 (ix2 p q)) = ix1 p := funext fun a => Fin.ext (by
    match a with
    | ⟨0, _⟩ => rfl)
  have eb : idx_main_v33 (idx_main_v34 (ix2 p q)) = ix1 q := funext fun a => Fin.ext (by
    match a with
    | ⟨0, _⟩ => rfl)
  rw [val_main_v35_apply, val_main_v32_apply, val_main_v23_apply, val_main_v31_apply, val_main_v30_apply,
    val_main_v34_apply, val_main_v33_apply, layer_apply]
  simp only [el, er, et, eb, Ideal.addf_def, Ideal.mulf_def]

end Cert.ReferenceIdeal.RefLayer

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibVecIndex.lean ====
/-
  Two reusable general lemmas about indexing a VECTOR (a rank-1 operand) by an integer column, each read at an index.

  The accumulating scatter. What `segment_sum(u, idx, N)` (or `x.at[idx].add(u)`) of a vector of updates `u : [E]` at an
  integer array `idx : [E]` lowers to: a scatter with an `add` body, no update window axes, inserted_window_dims `[0]`,
  scatter_dims_to_operand_dims `[0]` and index_vector_dim 1 over the indices as a column `[E, 1]`. Update entry `e`
  lands on operand entry `idx[e, 0]`: the index is read as a SIGNED integer and NOT clamped, so an update whose index is
  negative or at least `N` lands nowhere and is dropped. On the extended reals the result at `n` is therefore the
  operand's entry plus the sum of the updates `u e` over the `e` whose index is `n`.

  The gather. What `x[idx]` of a vector `x : [N]` at an integer array `idx : [R]` lowers to: a gather with no offset
  axes, collapsed_slice_dims `[0]`, start_index_map `[0]`, index_vector_dim 1 and slice sizes `[1]` over the indices
  as a column `[R, 1]`. Result element `r` is `x` at `idx[r, 0]`, read as a signed integer and clamped into
  `[0, N − 1]`, as the operation clamps every start index so that the slice fits.

  Both are stated at any extents and any index width; the gather at any element type.
-/
import Idealize.ShloMosaic.Lib.ValueIdx
import Idealize.ShloMosaic.PureOps.Ideal

noncomputable section

open scoped BigOperators

namespace Idealize.ShloMosaic.ScatterVec

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]`; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- On the operand's one axis the window of update `e` starts at the index `idx[e, 0]`, read signed. -/
theorem start_zero (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: the window coordinate is `0` there. -/
theorem window_zero (e : Fin E) : (vecDims N E wf).window (ix1 e) 0 = 0 := by
  unfold ScatterDims.window
  rw [dif_neg (show (0 : Fin 1) ∉ (vecDims N E wf).sKept from
    (by decide : (0 : Fin 1) ∉ (List.finRange 1).filter (· ∉ [(0 : Fin 1)])))]

/-- Update `e` lands on `n` exactly when its index, read signed, is `n`. -/
theorem resultIdx?_eq_some_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hn := n.isLt
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < ((⟨1, ![N]⟩ : Shape).size a : Int)
  · rw [dif_pos h, Option.some.injEq]
    have h0 := h 0
    rw [start_zero, window_zero] at h0
    constructor
    · intro heq
      have e0 := congrArg Fin.val (congrFun heq 0)
      change ((vecDims N E wf).start (ix1 e) idx 0 + ((vecDims N E wf).window (ix1 e) 0 : Nat)).toNat = n.val at e0
      rw [start_zero, window_zero] at e0
      omega
    · intro ht
      funext a
      refine Fin.ext ?_
      match a with
      | ⟨0, _⟩ =>
        show ((vecDims N E wf).start (ix1 e) idx 0 + ((vecDims N E wf).window (ix1 e) 0 : Nat)).toNat = n.val
        rw [start_zero, window_zero]; omega
  · rw [dif_neg h]
    refine ⟨fun hh => absurd hh (by simp), ?_⟩
    intro ht
    refine absurd (fun a => ?_) h
    match a with
    | ⟨0, _⟩ =>
      show 0 ≤ (vecDims N E wf).start (ix1 e) idx 0 + ((vecDims N E wf).window (ix1 e) 0 : Nat)
        ∧ (vecDims N E wf).start (ix1 e) idx 0 + ((vecDims N E wf).window (ix1 e) 0 : Nat) < (N : Int)
      rw [start_zero, window_zero]; omega

/-- THE VECTOR SCATTER-ADD READ AT `n`, on the extended reals: the operand's entry plus the sum of the updates whose
    index (read signed) is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_eq_some_iff]

/-- The same for the host operation as a program spells it, at any record of these dimension numbers that is the
    vector record (`hd`, by `rfl` on a program's literal record). -/
theorem host_scatterAdd_vec_apply {φ : FTy} (d : ScatterDims ⟨1, ![N]⟩ ⟨2, ![E, 1]⟩ ⟨1, ![E]⟩)
    (hd : d = vecDims N E wf) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 := by
  subst hd
  exact scatterAdd_vec_apply wf x idx upd n

end Idealize.ShloMosaic.ScatterVec

namespace Idealize.ShloMosaic.GatherVec

open Idealize.ShloMosaic Idealize.ShloMosaic.ValueIdx

variable {α : Type}

/-- The vector gather's dimension numbers for an operand `[N]`, start indices `[R, 1]` and result `[R]`; their
    conditions `wf` are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `r`: the operand at the index `idx[r, 0]`, read signed and clamped into
    `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
      + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherVec

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.LibEdgeScale.lean ====
/-
  A reusable general lemma: scaling the rows of a table before gathering them, against scaling each gathered row.

  Let x be an N × C table, s a vector of N row factors, u a vector of R per-position weights and idx a column of R
  integer indices. Gathering whole rows of the table whose row n was first multiplied by s n, and then multiplying
  the gathered row at position e by u e, gives at (e, c)

      (x (r, c) · s r) · u e,        r the row that idx names at e (read signed, clamped into [0, N − 1]),

  while gathering the rows of x itself and multiplying the row at position e by u e · s r — the weight times the
  factor gathered from s by the same indices — gives x (r, c) · (u e · s r). Both gathers clamp the index in the same
  way, so both read the same row r, and the two products differ only by the order and grouping of three factors.
  Multiplication of extended reals is commutative and associative, infinities included, so no finiteness is needed.
-/
import Idealize.ShloMosaic.Lib.ValueIdx
import Idealize.ShloMosaic.PureOps.Ideal
import proofs.«174362_j16612933501110_2_alg».proof.Proof.LibGatherRows
import proofs.«174362_j16612933501110_2_alg».proof.Proof.LibVecIndex
import proofs.«174362_j16612933501110_2_alg».proof.Proof.LibJoinIota

noncomputable section

namespace Idealize.ShloMosaic.EdgeScale

open Idealize.ShloMosaic Idealize.ShloMosaic.ValueIdx

/-- ROW FACTORS APPLIED AFTER THE GATHER: the rows of x gathered by idx, row e times (u e · (s gathered by idx) e),
    is the rows of (x with row n times s n) gathered by idx, row e times u e. The two gather records are any records
    of the row and vector dimension numbers (the equations by rfl on a program's literal records). -/
theorem gather_scaled_rows {N R C w : Nat} {φ : FTy} (hN : 0 < N)
    (wfr : GatherDims.WF ⟨2, ![N, C]⟩ ⟨2, ![R, 1]⟩ ⟨2, ![R, C]⟩ [1] [0] [] [0] [] 1 ![1, C])
    (wfv : GatherDims.WF ⟨1, ![N]⟩ ⟨2, ![R, 1]⟩ ⟨1, ![R]⟩ [] [0] [] [0] [] 1 ![1])
    (dr : GatherDims ⟨2, ![N, C]⟩ ⟨2, ![R, 1]⟩ ⟨2, ![R, C]⟩) (hdr : dr = GatherRows.rowDims N R C wfr)
    (dv : GatherDims ⟨1, ![N]⟩ ⟨2, ![R, 1]⟩ ⟨1, ![R]⟩) (hdv : dv = GatherVec.vecDims N R wfv)
    (hNcol : (⟨1, ![N]⟩ : Shape).BroadcastsInDim ⟨2, ![N, 1]⟩ ![0])
    (hNC : (⟨2, ![N, 1]⟩ : Shape).BroadcastsInDim ⟨2, ![N, C]⟩ ![0, 1])
    (hRcol : (⟨1, ![R]⟩ : Shape).BroadcastsInDim ⟨2, ![R, 1]⟩ ![0])
    (hRC : (⟨2, ![R, 1]⟩ : Shape).BroadcastsInDim ⟨2, ![R, C]⟩ ![0, 1])
    (x : FVec Ideal ⟨2, ![N, C]⟩ φ) (s : FVec Ideal ⟨1, ![N]⟩ φ) (u : FVec Ideal ⟨1, ![R]⟩ φ)
    (idx : IVec ⟨2, ![R, 1]⟩ w) :
    mulf (F := Ideal) (φ := φ) (Host.gather dr x idx)
        (broadcastInDim ⟨2, ![R, C]⟩ ![0, 1] hRC (broadcastInDim ⟨2, ![R, 1]⟩ ![0] hRcol
          (mulf (F := Ideal) (φ := φ) u (Host.gather dv s idx))))
      = mulf (F := Ideal) (φ := φ)
          (Host.gather dr (mulf (F := Ideal) (φ := φ) x
            (broadcastInDim ⟨2, ![N, C]⟩ ![0, 1] hNC (broadcastInDim ⟨2, ![N, 1]⟩ ![0] hNcol s))) idx)
          (broadcastInDim ⟨2, ![R, C]⟩ ![0, 1] hRC (broadcastInDim ⟨2, ![R, 1]⟩ ![0] hRcol u)) := by
  subst hdr hdv
  funext j
  obtain ⟨e, c, rfl⟩ : ∃ (e : Fin R) (c : Fin C), j = ix2 e c := ⟨j 0, j 1, eq_ix2 j⟩
  rw [mulf_apply, mulf_apply, GatherRows.gather_rows_apply hN, GatherRows.gather_rows_apply hN,
    JoinIota.broadcast_column_apply, JoinIota.broadcast_vec_column_apply,
    JoinIota.broadcast_column_apply, JoinIota.broadcast_vec_column_apply,
    mulf_apply, mulf_apply, GatherVec.gather_vec_apply hN,
    JoinIota.broadcast_column_apply, JoinIota.broadcast_vec_column_apply]
  rw [mul_comm (u (ix1 e)), mul_assoc]

end Idealize.ShloMosaic.EdgeScale

end
-- ==== Proof.Bridge.lean ====
/-
  The two programs aggregate the same messages and use the same destination-side factor.

  Both count the edges into each node in the same way, so the destination-side factors are one array, and both wrap
  and spread the source indices in the same way. The messages differ in where the source-side factor enters: the
  reference scales the whole feature table by it and then gathers rows and multiplies row e by the edge weight, while
  the tiled program gathers the rows of the unscaled table and multiplies row e by the edge weight times the factor
  gathered at the same index. Entry by entry these are (x · s) · u and x · (u · s): equal by the commutativity and
  associativity of multiplication on the extended reals. The same scatter then adds equal messages into zeros.
-/
import proofs.«174362_j16612933501110_2_alg».proof.Proof.HostStages
import proofs.«174362_j16612933501110_2_alg».proof.Proof.Gen.ReferenceIdeal.Read
import proofs.«174362_j16612933501110_2_alg».proof.Proof.LibEdgeScale

noncomputable section

namespace Cert.Bridge

open Idealize.ShloMosaic
open Cert.KernelIdeal.Stages Cert.ReferenceIdeal.Read

/-- The node factor of an index list is the reference's, for the source list … -/
theorem src_factor_eq (x4 : IVec ⟨1, ![800000]⟩ 32) : val_main_v6 (F := Ideal) x4 = degFactor x4 := by
  unfold val_main_v6 val_main_v4 val_main_call0_v1 val_main_call0_v0 val_main_cst_1 val_main_v3 val_main_v1 val_main_cst_0
    val_main_v2 val_main_v0 val_main_cst val_main_v5 val_main_cst_2 degFactor
  rfl

/-- … and for the destination list. -/
theorem dst_factor_eq (x5 : IVec ⟨1, ![800000]⟩ 32) : val_main_v29 (F := Ideal) x5 = degFactor x5 := by
  unfold val_main_v29 val_main_v27 val_main_call1_v1 val_main_call1_v0 val_main_cst_6 val_main_v26 val_main_v24 val_main_cst_5
    val_main_v25 val_main_v0 val_main_cst val_main_v28 val_main_cst_7 degFactor
  rfl

/-- The source index column is the reference's. -/
theorem src_column_eq (x4 : IVec ⟨1, ![800000]⟩ 32) : val_main_v15 (F := Ideal) x4 = srcColumn x4 := by
  unfold val_main_v15 val_main_v14 val_main_v11 val_main_v10 val_main_c val_main_v13 val_main_v12 val_main_c_3 srcColumn
  rfl

/-- The messages before aggregation are the reference's: the source-side factor applied after the gather. -/
theorem edge_rows_eq (x0 : FVec Ideal ⟨2, ![50000, 128]⟩ .f32) (x3 : FVec Ideal ⟨1, ![800000]⟩ .f32)
    (x4 : IVec ⟨1, ![800000]⟩ 32) : edgeRows x0 x3 x4 = val_main_v19 (F := Ideal) x0 x3 x4 := by
  unfold val_main_v19 val_main_v16 val_main_v9 val_main_v8 val_main_v7 val_main_v18 val_main_v17 edgeRows
  rw [src_factor_eq, src_column_eq]
  exact EdgeScale.gather_scaled_rows (N := 50000) (R := 800000) (C := 128) (w := 32) (φ := .f32) (by decide)
    Cert.KernelIdeal.Facts₀.gather_S50000x128_S800000x1_S800000x128_1_0_n_n_0_1_1128_wf
    Cert.KernelIdeal.Facts₀.gather_S50000_S800000x1_S800000_n_0_n_n_0_1_1_wf
    Cert.KernelIdeal.gather_S50000x128_S800000x1_S800000x128_1_0_n_n_0_1_1128 rfl
    Cert.KernelIdeal.gather_S50000_S800000x1_S800000_n_0_n_n_0_1_1 rfl
    Cert.ReferenceIdeal.Facts₀.bcast_S50000_S50000x1_0 Cert.ReferenceIdeal.Facts₀.bcast_S50000x1_S50000x128_0_1
    Cert.KernelIdeal.Facts₀.bcast_S800000_S800000x1_0 Cert.KernelIdeal.Facts₀.bcast_S800000x1_S800000x128_0_1
    x0 (degFactor x4) x3 (srcColumn x4)

/-- The aggregated messages are the reference's. -/
theorem messages_eq (x0 : FVec Ideal ⟨2, ![50000, 128]⟩ .f32) (x3 : FVec Ideal ⟨1, ![800000]⟩ .f32)
    (x4 x5 : IVec ⟨1, ![800000]⟩ 32) : aggregated x0 x3 x4 x5 = val_main_v22 (F := Ideal) x0 x3 x4 x5 := by
  unfold aggregated val_main_v22 val_main_v20 val_main_cst_4 val_main_v21
  rw [edge_rows_eq]
  rfl

end Cert.Bridge

end
-- ==== Proof.Claims.lean ====
/-
  The five claims.

  The tiled program's result array, after its run, is the layer of the arrays its grid finds; those are the aggregated
  messages, the weights, the bias recast as a row and the destination-side factor recast as a column, so the result is
  the layer of the aggregated messages, the weights, the bias and the factor. The reference's result is the layer of
  its own aggregated messages and factor, which are the same arrays of the same arguments. Nothing here needs the
  inputs to be finite: the only algebra is a sum read in one order on both sides and a product of three factors
  regrouped.
-/
import proofs.«174362_j16612933501110_2_alg».proof.Defs
import proofs.«174362_j16612933501110_2_alg».proof.Proof.Gen.Kernel.Frame
import proofs.«174362_j16612933501110_2_alg».proof.Proof.Gen.Pre_finite_inputs
import proofs.«174362_j16612933501110_2_alg».proof.Proof.Gen.KernelIdeal.Value
import proofs.«174362_j16612933501110_2_alg».proof.Proof.Gen.ReferenceIdeal.Run
import proofs.«174362_j16612933501110_2_alg».proof.Proof.Gen.ReferenceIdeal.Read
import proofs.«174362_j16612933501110_2_alg».proof.Proof.GraphLayer
import proofs.«174362_j16612933501110_2_alg».proof.Proof.HostStages
import proofs.«174362_j16612933501110_2_alg».proof.Proof.KernelArray
import proofs.«174362_j16612933501110_2_alg».proof.Proof.RefLayer
import proofs.«174362_j16612933501110_2_alg».proof.Proof.Bridge

noncomputable section

namespace Cert.Proof.Claims

open Idealize.ShloMosaic Idealize.ShloMosaic.TcCoe Idealize.SL.Sem
open Cert.GraphLayer

/-- The result both programs end with, as a function of the tiled program's arguments: the layer of the reference's
    aggregated messages, the weights, the bias and the reference's destination-side factor. -/
def result (m : (ℓ : Loc Cert.KernelIdeal.nD Cert.KernelIdeal.τ Cert.KernelIdeal.sig) → Buf (Elt Ideal) ℓ)
    (c : Dev Cert.KernelIdeal.nD) : (⟨2, ![50000, 128]⟩ : Shape).Idx → EReal :=
  layer (Cert.ReferenceIdeal.Read.val_main_v22 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)))
    (m ((c : Thread Cert.KernelIdeal.nD Cert.KernelIdeal.τ).loc Cert.KernelIdeal.main_arg1)) (m ((c : Thread Cert.KernelIdeal.nD Cert.KernelIdeal.τ).loc Cert.KernelIdeal.main_arg2)) (Cert.ReferenceIdeal.Read.val_main_v29 (F := Ideal) (m ((c : Thread Cert.KernelIdeal.nD Cert.KernelIdeal.τ).loc Cert.KernelIdeal.main_arg5)))

/-- The tiled program's result array after its run is that function. -/
theorem kernel_array (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 4 Cert.KernelIdeal.cfg0.N = result m c := by
  rw [Cert.KernelIdeal.KernelArray.final]
  unfold Cert.KernelIdeal.KernelArray.found result
  have e0 : Cert.KernelIdeal.Gen.V m c (Pipeline.arrRef Cert.KernelIdeal.spec0 0)
      = Cert.KernelIdeal.Stages.aggregated (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) :=
    Cert.KernelIdeal.Stages.found_messages m c
  have e1 : Cert.KernelIdeal.Gen.V m c (Pipeline.arrRef Cert.KernelIdeal.spec0 1) = (m ((c : Thread Cert.KernelIdeal.nD Cert.KernelIdeal.τ).loc Cert.KernelIdeal.main_arg1)) :=
    Cert.KernelIdeal.Gen.V_main_arg1 m c
  have e2 : Cert.KernelIdeal.Gen.V m c (Pipeline.arrRef Cert.KernelIdeal.spec0 2)
      = shapeCast Cert.KernelIdeal.S1x128 (m ((c : Thread Cert.KernelIdeal.nD Cert.KernelIdeal.τ).loc Cert.KernelIdeal.main_arg2)) Cert.KernelIdeal.Facts₀.shapeCasts_S128_S1x128 :=
    Cert.KernelIdeal.Stages.found_bias m c
  have e3 : Cert.KernelIdeal.Gen.V m c (Pipeline.arrRef Cert.KernelIdeal.spec0 3)
      = shapeCast Cert.KernelIdeal.S50000x1 (Cert.KernelIdeal.Stages.degFactor (m ((c : Thread Cert.KernelIdeal.nD Cert.KernelIdeal.τ).loc Cert.KernelIdeal.main_arg5)))
          Cert.KernelIdeal.Facts₀.shapeCasts_S50000_S50000x1 :=
    Cert.KernelIdeal.Stages.found_factor m c
  rw [e0, e1, e2, e3, layerCols_recast, Cert.Bridge.messages_eq, Cert.Bridge.dst_factor_eq]

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run on arguments that agree, end with the layer of the same aggregated messages and factor. -/
theorem algebraic : Cert.algebraic_KernelIdeal_ReferenceIdeal := by
  intro m ρ m' ρ' _ hagree
  refine ⟨fun c => result m c, ?_, ?_⟩
  · exact (θ_run Cert.KernelIdeal.defs _ _).mono (fun r h c => ⟨(h c).1.trans (kernel_array m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.ReferenceIdeal.RefLayer.result_is_layer,
      (hagree c).1, (hagree c).2.1, (hagree c).2.2.1, (hagree c).2.2.2.1, (hagree c).2.2.2.2.1, (hagree c).2.2.2.2.2]
    rfl

end Cert.Proof.Claims

end
-- ==== Proof.lean ====
/- The proof of Cert.Claim for one graph-convolution layer with symmetric degree normalisation.

   Both programs compute, for 50000 nodes with 128 features and 800000 weighted edges,
       out (n, q) = (∑ₖ agg (n, k) · W (k, q)) · t n + b q,
   where agg (n, ·) is the sum over the edges into n of the source node's features times the edge weight times the
   source node's factor, and s, t are the factors (max(1, degree))^(−1/2) of the out- and in-degrees. The reference
   scales the feature table by s before gathering rows; the tiled program scales the edge weight by the gathered s
   instead, and computes the final product, the scaling by t and the bias five blocks of 10000 rows at a time.
   Proof/GraphLayer.lean states the layer, Proof/BlockLayer.lean reads one block's arithmetic at an entry,
   Proof/KernelArray.lean assembles the blocks into the result array, Proof/HostStages.lean reads what the grid
   finds in its arrays, Proof/RefLayer.lean reads the reference's result as the layer, Proof/Bridge.lean (over
   Proof/LibEdgeScale.lean) shows the two programs aggregate the same messages, and Proof/Claims.lean proves the
   five claims. -/
import proofs.«174362_j16612933501110_2_alg».proof.Defs
import proofs.«174362_j16612933501110_2_alg».proof.Proof.Claims
import proofs.«174362_j16612933501110_2_alg».proof.Proof.Gen.Kernel
import proofs.«174362_j16612933501110_2_alg».proof.Proof.Gen.KernelIdeal
import proofs.«174362_j16612933501110_2_alg».proof.Proof.Gen.ReferenceIdeal
import proofs.«174362_j16612933501110_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, Claims.preserves, Claims.algebraic⟩

end Cert.Proof

end
